-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S1024x4096 : Shape := ⟨2, ![1024, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_

variable [Facts]

def fn {F : FTy → Type} [FloatOps F] (main_arg0 : FVec F S4096x4096 .f32) (main_arg1 : FVec F S1024x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  main_v8
-- ==== Kernel.lean ====
abbrev S4096x4096 : Shape := ⟨2, ![4096, 4096]⟩
abbrev S1024x4096 : Shape := ⟨2, ![1024, 4096]⟩
abbrev S_ : Shape := ⟨0, ![]⟩
abbrev S1024 : Shape := ⟨1, ![1024]⟩
abbrev S1x1024 : Shape := ⟨2, ![1, 1024]⟩
abbrev S4096x1024 : Shape := ⟨2, ![4096, 1024]⟩
abbrev S256x4096 : Shape := ⟨2, ![256, 4096]⟩
abbrev S256x1024 : Shape := ⟨2, ![256, 1024]⟩
abbrev S256 : Shape := ⟨1, ![256]⟩
abbrev S256x1 : Shape := ⟨2, ![256, 1]⟩

abbrev nBuf : Space → Nat
  | .hbm => 11
  | .vmem => 6
  | .smem => 0
  | _ => 0

abbrev bufTy : (tb : Table) → Fin (tcTables nBuf tb) → BufTy
  | .hbm, ⟨0, _⟩ => ⟨S4096x4096, .f32⟩
  | .hbm, ⟨1, _⟩ => ⟨S1024x4096, .f32⟩
  | .hbm, ⟨2, _⟩ => ⟨S1024x4096, .bf16⟩
  | .hbm, ⟨3, _⟩ => ⟨S1024x4096, .f32⟩
  | .hbm, ⟨4, _⟩ => ⟨S_, .f32⟩
  | .hbm, ⟨5, _⟩ => ⟨S1024, .f32⟩
  | .hbm, ⟨6, _⟩ => ⟨S_, .f32⟩
  | .hbm, ⟨7, _⟩ => ⟨S1024, .f32⟩
  | .hbm, ⟨8, _⟩ => ⟨S1024, .f32⟩
  | .hbm, ⟨9, _⟩ => ⟨S1x1024, .f32⟩
  | .hbm, ⟨10, _⟩ => ⟨S4096x1024, .f32⟩
  | .local _ .vmem, ⟨0, _⟩ => ⟨S256x4096, .f32⟩
  | .local _ .vmem, ⟨1, _⟩ => ⟨S256x4096, .f32⟩
  | .local _ .vmem, ⟨2, _⟩ => ⟨S1024x4096, .bf16⟩
  | .local _ .vmem, ⟨3, _⟩ => ⟨S1x1024, .f32⟩
  | .local _ .vmem, ⟨4, _⟩ => ⟨S256x1024, .f32⟩
  | .local _ .vmem, ⟨5, _⟩ => ⟨S256x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  reducesTo_S1024x4096_S1024_d1 : S1024x4096.ReducesTo [1] S1024
  h_S_ : 0 < S_.numel
  bcast_S_S1024 : S_.BroadcastsInDim S1024 (![] : Fin 0 → Fin S1024.rank)
  bcast_S1024_S1x1024_1 : S1024.BroadcastsInDim S1x1024 (![1] : Fin 1 → Fin S1x1024.rank)
  inb_S256x4096_S256x4096_0_0 : ∀ a, (![0, 0] : Fin 2 → Nat) a + S256x4096.size a ≤ S256x4096.size a
  h_S256x4096 : 0 < S256x4096.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  reduces_S256x4096_S256 : S256x4096.Reduces [1] S256
  shapeCasts_S256_S256x1 : S256.ShapeCasts S256x1
  broadcasts_S256x1_S256x1024 : S256x1.Broadcasts S256x1024
  broadcasts_S1x1024_S256x1024 : S1x1024.Broadcasts S256x1024
  inb_S256x1024_S256x1024_0_0 : ∀ a, (![0, 0] : Fin 2 → Nat) a + S256x1024.size a ≤ S256x1024.size a
  h_S256x1024 : 0 < S256x1024.numel
  dot_S256x4096_S1024x4096_S256x1024_1_1_0_0_n_n_wf : DotDims.WF S256x4096 S1024x4096 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S1024x4096.size a
  hwx0_1 : ∀ i : grid0.Coords, EltTy.bits .bf16 = 32 ∨ (Rect.block (s := S1024x4096) S1024x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S4096x1024.size a
  hwx0_3 : ∀ i : grid0.Coords, EltTy.bits .f32 = 32 ∨ (Rect.block (s := S4096x1024) S256x1024.size (cc0_transform_3 i) (hinb0_3 i)).WholeWords (EltTy.packing .f32)

variable [Facts₀]

def dot_S256x4096_S1024x4096_S256x1024_1_1_0_0_n_n : DotDims S256x4096 S1024x4096 S256x1024 where
  lhsContracting := [1]
  rhsContracting := [1]
  lhsNonContracting := [0]
  rhsNonContracting := [0]
  lhsBatch := []
  rhsBatch := []
  wf := dot_S256x4096_S1024x4096_S256x1024_1_1_0_0_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S256x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1x1024 : Shape := ⟨2, ![1, 1024]⟩
abbrev S4096x1024 : Shape := ⟨2, ![4096, 1024]⟩

abbrev nBuf : Space → Nat
  | .hbm => 22
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S1024x4096, .f32⟩
  | .hbm, ⟨2, _⟩ => ⟨S4096x4096, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S1024x4096, .f32⟩
  | .hbm, ⟨7, _⟩ => ⟨S_, .f32⟩
  | .hbm, ⟨8, _⟩ => ⟨S1024, .f32⟩
  | .hbm, ⟨9, _⟩ => ⟨S1x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  bcast_S4096_S4096x1_0 : S4096.BroadcastsInDim S4096x1 (![0] : Fin 1 → Fin S4096x1.rank)
  reducesTo_S1024x4096_S1024_d1 : S1024x4096.ReducesTo [1] S1024
  bcast_S1024_S1x1024_1 : S1024.BroadcastsInDim S1x1024 (![1] : Fin 1 → Fin S1x1024.rank)
  bcast_S_S4096x1024 : S_.BroadcastsInDim S4096x1024 (![] : Fin 0 → Fin S4096x1024.rank)
  bcast_S4096x1_S4096x1024_0_1 : S4096x1.BroadcastsInDim S4096x1024 (![0, 1] : Fin 2 → Fin S4096x1024.rank)
  bcast_S1x1024_S4096x1024_0_1 : S1x1024.BroadcastsInDim S4096x1024 (![0, 1] : Fin 2 → Fin S4096x1024.rank)
  dot_S4096x4096_S1024x4096_S4096x1024_1_1_0_0_n_n_wf : DotDims.WF S4096x4096 S1024x4096 S4096x1024 [1] [1] [0] [0] [] []

variable [Facts₀]

def dot_S4096x4096_S1024x4096_S4096x1024_1_1_0_0_n_n : DotDims S4096x4096 S1024x4096 S4096x1024 where
  lhsContracting := [1]
  rhsContracting := [1]
  lhsNonContracting := [0]
  rhsNonContracting := [0]
  lhsBatch := []
  rhsBatch := []
  wf := dot_S4096x4096_S1024x4096_S4096x1024_1_1_0_0_n_n_wf

class Facts : Prop extends Facts₀ where

variable [Facts]
-- ==== Proof.DistanceLaw.lean ====
/-
  The negated mean squared distance between the rows of two arrays, in two arrangements.

  For x : [4096, 4096] and w : [1024, 4096] the entry (r, c) is
      -(|x_r|^2 - 2 <x_r, w_c> + |w_c|^2) / 4096,
  the squared Euclidean distance between row r of x and row c of w, expanded, averaged over the 4096 features and
  negated. One arrangement divides the bracket by 4096 at the end (`refForm`); the other distributes the factor
  first, scaling the inner product by 2/4096 and each squared norm by 1/4096 (`kernelForm`). The four literals
  involved are exact powers of two, so they denote the reals 1/4096, 2/4096, 2 and 4096 exactly.

  The two arrangements agree wherever every entry of x and w is a real number: then each of the three sums is a
  real, and the identity is distributivity in the reals. It is NOT an identity of the extended reals: distributing
  a factor over a difference fails when a sum is infinite, which is why the entries are asked to be real.
-/
import Idealize.ShloMosaic.PureOps.Ideal
import Idealize.ShloMosaic.Lib.ValueIdx

noncomputable section

open scoped BigOperators

namespace Cert.Deconf

open Idealize.ShloMosaic Idealize.ShloMosaic.ValueIdx

/-! ## The four literals, as the reals they denote -/

/-- The word of 2^-12 denotes 1/4096. -/
theorem word_invD : Ideal.ofBits .f32 0x39800000#32 = ((1 / 4096 : ℝ) : EReal) := by
  simp [Ideal.ofBits, Ideal.ieee, -EReal.coe_mul]; norm_num

/-- The word of 2^-11 denotes 2/4096. -/
theorem word_twoInvD : Ideal.ofBits .f32 0x3A000000#32 = ((2 / 4096 : ℝ) : EReal) := by
  simp [Ideal.ofBits, Ideal.ieee, -EReal.coe_mul]; norm_num

/-- The word of 2^1 denotes 2. -/
theorem word_two : Ideal.ofBits .f32 0x40000000#32 = ((2 : ℝ) : EReal) := by
  simp [Ideal.ofBits, Ideal.ieee, -EReal.coe_mul]; norm_num

/-- The word of 2^12 denotes 4096. -/
theorem word_D : Ideal.ofBits .f32 0x45800000#32 = ((4096 : ℝ) : EReal) := by
  simp [Ideal.ofBits, Ideal.ieee, -EReal.coe_mul]; norm_num

/-! ## The three sums -/

/-- The squared norm of row `r` of an array with 4096 columns. -/
def rowSq {n : Nat} (x : (⟨2, ![n, 4096]⟩ : Shape).Idx → EReal) (r : Fin n) : EReal :=
  ∑ k : Fin 4096, x (ix2 r k) * x (ix2 r k)

/-- The inner product of row `r` of `x` with row `c` of `w`, both with 4096 columns. -/
def dotRows {n l : Nat} (x : (⟨2, ![n, 4096]⟩ : Shape).Idx → EReal) (w : (⟨2, ![l, 4096]⟩ : Shape).Idx → EReal)
    (r : Fin n) (c : Fin l) : EReal :=
  ∑ k : Fin 4096, x (ix2 r k) * w (ix2 c k)

/-! ## The two arrangements -/

/-- The factor distributed first: 2/4096 times the inner product, less 1/4096 of each squared norm. -/
def kernelForm {n l : Nat} (x : (⟨2, ![n, 4096]⟩ : Shape).Idx → EReal) (w : (⟨2, ![l, 4096]⟩ : Shape).Idx → EReal)
    (r : Fin n) (c : Fin l) : EReal :=
  dotRows x w r c * Ideal.ofBits .f32 0x3A000000#32 - rowSq x r * Ideal.ofBits .f32 0x39800000#32
    - rowSq w c * Ideal.ofBits .f32 0x39800000#32

/-- The bracket first, negated, then divided by 4096. -/
def refForm {n l : Nat} (x : (⟨2, ![n, 4096]⟩ : Shape).Idx → EReal) (w : (⟨2, ![l, 4096]⟩ : Shape).Idx → EReal)
    (r : Fin n) (c : Fin l) : EReal :=
  Ideal.div (-(rowSq x r - Ideal.ofBits .f32 0x40000000#32 * dotRows x w r c + rowSq w c))
    (Ideal.ofBits .f32 0x45800000#32)

/-! ## Sums of reals stay real -/

/-- A finite sum of reals, taken in the extended reals, is the real sum. -/
theorem sum_coe {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The squared norm of a row of reals is the real squared norm. -/
theorem rowSq_coe {n : Nat} (x : (⟨2, ![n, 4096]⟩ : Shape).Idx → ℝ) (r : Fin n) :
    rowSq (fun i => ((x i : ℝ) : EReal)) r = ((∑ k : Fin 4096, x (ix2 r k) * x (ix2 r k) : ℝ) : EReal) := by
  unfold rowSq
  rw [← sum_coe]
  exact Finset.sum_congr rfl fun k _ => (EReal.coe_mul _ _).symm

/-- The inner product of two rows of reals is the real inner product. -/
theorem dotRows_coe {n l : Nat} (x : (⟨2, ![n, 4096]⟩ : Shape).Idx → ℝ) (w : (⟨2, ![l, 4096]⟩ : Shape).Idx → ℝ)
    (r : Fin n) (c : Fin l) :
    dotRows (fun i => ((x i : ℝ) : EReal)) (fun i => ((w i : ℝ) : EReal)) r c
      = ((∑ k : Fin 4096, x (ix2 r k) * w (ix2 c k) : ℝ) : EReal) := by
  unfold dotRows
  rw [← sum_coe]
  exact Finset.sum_congr rfl fun k _ => (EReal.coe_mul _ _).symm

/-! ## The law -/

/-- Over three real numbers — the inner product `a` and the two squared norms `s`, `t` — the two arrangements
    are one real number: a·(2/4096) − s·(1/4096) − t·(1/4096) = −(s − 2a + t)·(1/4096). -/
theorem forms_real (a s t : ℝ) :
    (a : EReal) * ((2 / 4096 : ℝ) : EReal) - (s : EReal) * ((1 / 4096 : ℝ) : EReal) - (t : EReal) * ((1 / 4096 : ℝ) : EReal)
      = Ideal.div (-((s : EReal) - ((2 : ℝ) : EReal) * (a : EReal) + (t : EReal))) ((4096 : ℝ) : EReal) := by
  rw [Ideal.div_coe (by norm_num : (4096 : ℝ) ≠ 0)]
  simp only [← EReal.coe_mul, ← EReal.coe_sub, ← EReal.coe_add, ← EReal.coe_neg]
  congr 1
  ring

/-- THE LAW: on arrays whose every entry is a real number the two arrangements agree at every entry. -/
theorem kernelForm_eq_refForm {n l : Nat} (x : (⟨2, ![n, 4096]⟩ : Shape).Idx → EReal)
    (w : (⟨2, ![l, 4096]⟩ : Shape).Idx → EReal) (hx : ∀ i, ∃ v : ℝ, x i = (v : EReal)) (hw : ∀ i, ∃ v : ℝ, w i = (v : EReal))
    (r : Fin n) (c : Fin l) : kernelForm x w r c = refForm x w r c := by
  choose xr hxr using hx
  choose wr hwr using hw
  obtain rfl : x = fun i => ((xr i : ℝ) : EReal) := funext hxr
  obtain rfl : w = fun i => ((wr i : ℝ) : EReal) := funext hwr
  unfold kernelForm refForm
  rw [rowSq_coe, rowSq_coe, dotRows_coe, word_invD, word_twoInvD, word_two, word_D]
  exact forms_real _ _ _

/-! ## The whole array -/

/-- The [4096, 1024] array whose entry (r, c) is the distributed arrangement for row r of x and row c of w. -/
def kernelArray (x : (⟨2, ![4096, 4096]⟩ : Shape).Idx → EReal) (w : (⟨2, ![1024, 4096]⟩ : Shape).Idx → EReal) :
    (⟨2, ![4096, 1024]⟩ : Shape).Idx → EReal :=
  fun i => kernelForm (n := 4096) (l := 1024) x w (i 0) (i 1)

/-- Its entry at coordinates (r, c). -/
theorem kernelArray_at (x : (⟨2, ![4096, 4096]⟩ : Shape).Idx → EReal) (w : (⟨2, ![1024, 4096]⟩ : Shape).Idx → EReal)
    (r : Fin 4096) (c : Fin 1024) : kernelArray x w (ix2 r c) = kernelForm x w r c := rfl

end Cert.Deconf

end
-- ==== Proof.KernelEntry.lean ====
/-
  One grid step of the kernel, read at an entry of its output block.

  The step holds 256 rows of x (a [256, 4096] block), all of w ([1024, 4096]) and a row of 1024 numbers s, and
  stores a [256, 1024] block. At (p, q) the stored value is
      <x_p, w_q> · 2^-11  −  |x_p|^2 · 2^-12  −  s_q :
  the inner product comes from one contraction of the two feature axes into a zero accumulator, the squared norm
  from a sum along the lanes of x·x kept as a [256, 1] column and broadcast along the columns, and s_q from the row
  broadcast along the rows. The narrowing of x and w to sixteen bits before the contraction changes nothing here:
  on the extended reals a change of float format is the identity.
-/
import proofs.«105866_j10290741641835_2_alg».proof.Proof.Gen.KernelIdeal.Skeleton
import proofs.«105866_j10290741641835_2_alg».proof.Proof.DistanceLaw
import Idealize.ShloMosaic.Lib.Pipeline.Value
import Idealize.ShloMosaic.Lib.ValueLayout
import Idealize.ShloMosaic.PureOps.Ideal.Laws

noncomputable section

open scoped BigOperators

namespace Cert.Deconf

open Cert.KernelIdeal Cert.KernelIdeal.Gen Idealize.ShloMosaic Idealize.ShloMosaic.ValueIdx

/-! ## Two column layouts read at an entry -/

/-- A length-a vector viewed as an [a, 1] column reads the vector's entry p at (p, u), whatever the unit coordinate. -/
theorem column_of_vector {α : Type} {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_one, Shape.rowMajor_val_two]
    show p.val = p.val * 1 + u.val
    rw [hu, Nat.mul_one, Nat.add_zero])

/-- An [a, 1] column broadcast to [a, b] reads, at (p, c), the column's entry in row p. -/
theorem column_broadcast {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-! ## The three parts of the stored value -/

/-- The sum along the lanes of a [256, 4096] block, read at row p, is the sum over the 4096 features of that row. -/
theorem lane_sum_at (src : FVec Ideal S256x4096 .f32) (h : S256x4096.Reduces [1] S256) (hφ : FKind.Formats .f32)
    (hacc : (0x00000000#32 : BitVec 32) = FKind.add.neutral .f32 hφ) (p : Fin 256) :
    multiReduction .add [1] S256 src 0x00000000#32 h hφ hacc (ix1 p) = ∑ k : Fin 4096, src (ix2 p k) := by
  refine (Ideal.multiReduction_add_single src 0x00000000#32 h hφ hacc (ix1 p)).trans ?_
  refine Finset.sum_congr rfl fun k _ => ?_
  exact congrArg src (funext fun a => Fin.ext (by match a with | ⟨0, _⟩ => rfl | ⟨1, _⟩ => rfl))

theorem lhs_row (i : S256x1024.Idx) (q : dot_S256x4096_S1024x4096_S256x1024_1_1_0_0_n_n.contr.Idx) :
    (dot_S256x4096_S1024x4096_S256x1024_1_1_0_0_n_n.lhsIdx i q 0).val = (i 0).val := by
  unfold DotDims.lhsIdx
  rw [dif_neg (show ¬(0 : Fin S256x4096.rank) ∈ dot_S256x4096_S1024x4096_S256x1024_1_1_0_0_n_n.lhsBatch by decide), dif_pos (show (0 : Fin S256x4096.rank) ∈ dot_S256x4096_S1024x4096_S256x1024_1_1_0_0_n_n.lhsNonContracting by decide)]
  rfl
theorem lhs_feature (i : S256x1024.Idx) (q : dot_S256x4096_S1024x4096_S256x1024_1_1_0_0_n_n.contr.Idx) :
    (dot_S256x4096_S1024x4096_S256x1024_1_1_0_0_n_n.lhsIdx i q 1).val = (q ⟨0, by decide⟩).val :=
  dot_S256x4096_S1024x4096_S256x1024_1_1_0_0_n_n.lhsIdx_val_of_single rfl i q
theorem rhs_row (i : S256x1024.Idx) (q : dot_S256x4096_S1024x4096_S256x1024_1_1_0_0_n_n.contr.Idx) :
    (dot_S256x4096_S1024x4096_S256x1024_1_1_0_0_n_n.rhsIdx i q 0).val = (i 1).val := by
  unfold DotDims.rhsIdx
  rw [dif_neg (show ¬(0 : Fin S1024x4096.rank) ∈ dot_S256x4096_S1024x4096_S256x1024_1_1_0_0_n_n.rhsBatch by decide), dif_pos (show (0 : Fin S1024x4096.rank) ∈ dot_S256x4096_S1024x4096_S256x1024_1_1_0_0_n_n.rhsNonContracting by decide)]
  rfl
theorem rhs_feature (i : S256x1024.Idx) (q : dot_S256x4096_S1024x4096_S256x1024_1_1_0_0_n_n.contr.Idx) :
    (dot_S256x4096_S1024x4096_S256x1024_1_1_0_0_n_n.rhsIdx i q 1).val = (q ⟨0, by decide⟩).val :=
  dot_S256x4096_S1024x4096_S256x1024_1_1_0_0_n_n.rhsIdx_val_of_single rfl i q

/-- The contraction of the feature axes of a [256, 4096] and a [1024, 4096] block into a zero accumulator, read at
    (p, q), is the sum over the features of row p of the first times row q of the second. -/
theorem contraction_at (a : FVec Ideal S256x4096 .bf16) (b : FVec Ideal S1024x4096 .bf16) (p : Fin 256) (q : Fin 1024) :
    matmul dot_S256x4096_S1024x4096_S256x1024_1_1_0_0_n_n none a b (constant (F := Ideal) S256x1024 .f32 0x00000000#32) (ix2 p q)
      = ∑ k : Fin 4096, a (ix2 p k) * b (ix2 q k) := by
  show FloatOps.matmul dot_S256x4096_S1024x4096_S256x1024_1_1_0_0_n_n none a b (constant (F := Ideal) S256x1024 .f32 0x00000000#32) (ix2 p q) = _
  rw [Ideal.matmul_constant_zero_apply, ← Equiv.sum_comp (contrEquiv1 dot_S256x4096_S1024x4096_S256x1024_1_1_0_0_n_n 4096 rfl rfl).symm]
  refine Finset.sum_congr rfl fun k _ => ?_
  have hk := contrEquiv1_symm_val dot_S256x4096_S1024x4096_S256x1024_1_1_0_0_n_n 4096 rfl rfl k
  have el : dot_S256x4096_S1024x4096_S256x1024_1_1_0_0_n_n.lhsIdx (ix2 p q) ((contrEquiv1 dot_S256x4096_S1024x4096_S256x1024_1_1_0_0_n_n 4096 rfl rfl).symm k) = ix2 p k := funext fun ax => Fin.ext (by
    match ax with
    | ⟨0, _⟩ => exact lhs_row _ _
    | ⟨1, _⟩ => exact (lhs_feature _ _).trans hk)
  have er : dot_S256x4096_S1024x4096_S256x1024_1_1_0_0_n_n.rhsIdx (ix2 p q) ((contrEquiv1 dot_S256x4096_S1024x4096_S256x1024_1_1_0_0_n_n 4096 rfl rfl).symm k) = ix2 q k := funext fun ax => Fin.ext (by
    match ax with
    | ⟨0, _⟩ => exact rhs_row _ _
    | ⟨1, _⟩ => exact (rhs_feature _ _).trans hk)
  rw [el, er]

/-- The inner-product part: the narrowed block of x contracted with w (through a cast to its own shape). -/
theorem cross_at (v0 : FVec Ideal S256x4096 .f32) (v1 : FVec Ideal S1024x4096 .bf16) (p : Fin 256) (q : Fin 1024) :
    matmul dot_S256x4096_S1024x4096_S256x1024_1_1_0_0_n_n none (truncf .bf16 v0 bitsLt_bf16_f32)
        (shapeCast S1024x4096 v1 shapeCasts_S1024x4096_S1024x4096) (constant (F := Ideal) S256x1024 .f32 0x00000000#32) (ix2 p q)
      = dotRows (n := 256) (l := 1024) v0 v1 p q := by
  rw [shapeCast_self]
  exact contraction_at _ _ p q

/-- The squared-norm part: the lane sum of x·x as a column, scaled, broadcast along the columns. -/
theorem norm_at (v0 : FVec Ideal S256x4096 .f32) (h : S256x4096.Reduces [1] S256) (hφ : FKind.Formats .f32)
    (hacc : (0x00000000#32 : BitVec 32) = FKind.add.neutral .f32 hφ) (p : Fin 256) (q : Fin 1024) :
    broadcastTo S256x1024 (mulf (shapeCast S256x1 (multiReduction .add [1] S256 (mulf v0 v0) 0x00000000#32 h hφ hacc) shapeCasts_S256_S256x1)
        (broadcast S256x1 (Scalar.ofBits (F := Ideal) .f32 0x39800000#32))) broadcasts_S256x1_S256x1024 (ix2 p q)
      = rowSq (n := 256) v0 p * Ideal.ofBits .f32 0x39800000#32 := by
  refine (column_broadcast _ broadcasts_S256x1_S256x1024 p q).trans ?_
  show shapeCast S256x1 (multiReduction .add [1] S256 (mulf v0 v0) 0x00000000#32 h hφ hacc) shapeCasts_S256_S256x1 (ix2 p (0 : Fin 1)) * _ = _
  refine congrArg (· * Ideal.ofBits .f32 0x39800000#32) ?_
  refine (column_of_vector _ shapeCasts_S256_S256x1 p 0).trans ?_
  exact lane_sum_at (mulf v0 v0) h hφ hacc p

/-- The row part: s through a cast to its own shape, broadcast along the rows. -/
theorem row_at (v3 : FVec Ideal S1x1024 .f32) (p : Fin 256) (q : Fin 1024) :
    broadcastTo S256x1024 (shapeCast S1x1024 v3 shapeCasts_S1x1024_S1x1024) broadcasts_S1x1024_S256x1024 (ix2 p q)
      = v3 (ix2 (0 : Fin 1) q) := by
  rw [shapeCast_self]
  exact broadcastTo_1b_ab_apply v3 broadcasts_S1x1024_S256x1024 p q

/-! ## The stored value -/

/-- WHAT ONE STEP STORES AT (p, q): inner product · 2^-11 − squared norm · 2^-12 − s_q. -/
theorem stored_at (v0 : FVec Ideal S256x4096 .f32) (v1 : FVec Ideal S1024x4096 .bf16) (v3 : FVec Ideal S1x1024 .f32)
    (p : Fin 256) (q : Fin 1024) :
    k0_pay1 (F := Ideal) v0 v1 v3 (ix2 p q)
      = dotRows (n := 256) (l := 1024) v0 v1 p q * Ideal.ofBits .f32 0x3A000000#32
        - rowSq (n := 256) v0 p * Ideal.ofBits .f32 0x39800000#32 - v3 (ix2 (0 : Fin 1) q) := by
  unfold k0_pay1
  exact congrArg₂ (· - ·) (congrArg₂ (· - ·) (congrArg (· * Ideal.ofBits .f32 0x3A000000#32) (cross_at v0 v1 p q))
    (norm_at v0 reduces_S256x4096_S256 (.inl rfl) rfl p q)) (row_at v3 p q)

/-- ONE STEP AGAINST THE WHOLE ARRAYS: if the step's block of x holds, in its row p, row R of an array `X`; its
    copy of w holds, in row q, row q of an array `W`; and its row holds at q the squared norm of row q of `W` times
    2^-12 — then what it stores at (p, q) is the distributed arrangement for row R of `X` and row q of `W`. -/
theorem step_entry (x0 : FVec Ideal S256x4096 .f32) (x1 : FVec Ideal S1024x4096 .bf16) (x2 : FVec Ideal S1x1024 .f32)
    (X : (⟨2, ![4096, 4096]⟩ : Shape).Idx → EReal) (W : (⟨2, ![1024, 4096]⟩ : Shape).Idx → EReal)
    (R : Fin 4096) (p : Fin 256) (q : Fin 1024)
    (h0 : ∀ k : Fin 4096, x0 (ix2 p k) = X (ix2 R k))
    (h1 : ∀ k : Fin 4096, x1 (ix2 q k) = W (ix2 q k))
    (h2 : x2 (ix2 (0 : Fin 1) q) = rowSq (n := 1024) W q * Ideal.ofBits .f32 0x39800000#32) :
    k0_pay1 (F := Ideal) x0 x1 x2 (ix2 p q) = kernelForm (n := 4096) (l := 1024) X W R q := by
  rw [stored_at, h2]
  unfold kernelForm dotRows rowSq
  simp only [h0, h1]

end Cert.Deconf

end
-- ==== Proof.StagedArrays.lean ====
/-
  The two arrays the host prepares before the grid runs.

  Before the 16 grid steps the host narrows w to sixteen bits — which on the extended reals leaves every entry as it
  is — and computes, for each of the 1024 rows of w, its squared norm (a sum over the feature axis from the initial
  value 0) times 2^-12, laid out as a [1, 1024] row. So the first array read at (q, k) is w at (q, k), and the second
  read at (0, q) is |w_q|^2 · 2^-12.
-/
import proofs.«105866_j10290741641835_2_alg».proof.Proof.Gen.KernelIdeal.Frame
import proofs.«105866_j10290741641835_2_alg».proof.Proof.DistanceLaw
import Idealize.ShloMosaic.Lib.StableHlo.Run
import Idealize.ShloMosaic.Lib.Pipeline.Value
import Idealize.ShloMosaic.Lib.ValueIdx
import Idealize.ShloMosaic.PureOps.Ideal.Laws

noncomputable section

open scoped BigOperators

namespace Cert.Deconf

open Cert.KernelIdeal Cert.KernelIdeal.Gen Idealize.ShloMosaic Idealize.ShloMosaic.TcCoe Idealize.ShloMosaic.ValueIdx
open Idealize.SL.Sem Idealize.ShloMosaic.StableHlo

/-! ## The host's sum over the feature axis, and the scaled row of squared norms, as pure terms -/

/-- The host's sum of a [1024, 4096] array over its feature axis from the initial value 0, read at row q. -/
theorem host_row_sum_at (y : FVec Ideal S1024x4096 .f32) (q : Fin 1024) :
    Host.reduceAdd (F := Ideal) y (constant (F := Ideal) S_ .f32 0x00000000#32) reducesTo_S1024x4096_S1024_d1 h_S_ (ix1 q)
      = ∑ k : Fin 4096, y (ix2 q k) := by
  simp only [Host.reduceAdd, Ideal.hostReduceAdd_def]
  rw [Ideal.hostReduceAdd_single reducesTo_S1024x4096_S1024_d1 (by decide)]
  show Ideal.ofBits .f32 0x00000000#32 + _ = _
  rw [Ideal.ofBits_zero_f32, zero_add]
  refine Finset.sum_congr rfl fun k _ => ?_
  exact congrArg y (funext fun a => Fin.ext (by match a with | ⟨0, _⟩ => rfl | ⟨1, _⟩ => rfl))

/-- The row the host prepares from an array `W`: squared norms of its rows, each times the literal 2^-12, as [1, 1024]. -/
def scaledNormsRow (W : FVec Ideal S1024x4096 .f32) : FVec Ideal S1x1024 .f32 :=
  broadcastInDim S1x1024 ![1] bcast_S1024_S1x1024_1
    (mulf (Host.reduceAdd (F := Ideal) (mulf W W) (constant (F := Ideal) S_ .f32 0x00000000#32) reducesTo_S1024x4096_S1024_d1 h_S_)
      (broadcastInDim S1024 ![] bcast_S_S1024 (constant (F := Ideal) S_ .f32 0x39800000#32)))

/-- That row read at (u, q) is the squared norm of row q times 2^-12. -/
theorem scaledNormsRow_at (W : FVec Ideal S1024x4096 .f32) (u : Fin 1) (q : Fin 1024) :
    scaledNormsRow W (ix2 u q) = rowSq (n := 1024) W q * Ideal.ofBits .f32 0x39800000#32 := by
  unfold scaledNormsRow
  refine (broadcastInDim_apply _ bcast_S1024_S1x1024_1 _ (ix2 u q) (ix1 q) (fun a => match a with
    | ⟨0, _⟩ => by show q.val = if (1024 : Nat) = 1 then 0 else q.val; rw [if_neg (by decide)])).trans ?_
  show Host.reduceAdd (F := Ideal) (mulf W W) (constant (F := Ideal) S_ .f32 0x00000000#32) reducesTo_S1024x4096_S1024_d1 h_S_ (ix1 q)
      * broadcastInDim S1024 ![] bcast_S_S1024 (constant (F := Ideal) S_ .f32 0x39800000#32) (ix1 q) = _
  rw [host_row_sum_at]
  rfl

/-! ## The arrays as the grid finds them -/

variable (m : (ℓ : Loc nD τ sig) → Buf (Elt Ideal) ℓ)

/-- The narrowed copy of w is w, entry by entry. -/
theorem narrowed_w (c : Dev nD) :
    @Eq (S1024x4096.Idx → EReal) (V m c main_v0) (m ((c : Thread nD τ).loc main_arg1)) := by
  dsimp only [Gen.V, Gen.hostOps0]; after_results
  rfl

/-- The prepared row is the scaled squared norms of w's rows. -/
theorem prepared_row (c : Dev nD) :
    @Eq (S1x1024.Idx → EReal) (V m c main_v5) (scaledNormsRow (m ((c : Thread nD τ).loc main_arg1))) := by
  unfold scaledNormsRow
  dsimp only [Gen.V, Gen.hostOps0]; after_results

end Cert.Deconf

end
-- ==== Proof.KernelArray.lean ====
/-
  From the 16 grid steps to the whole output array.

  Step t of the grid holds rows 256·t … 256·t + 255 of x, all of the narrowed w, and the prepared row of scaled
  squared norms; it writes rows 256·t … 256·t + 255 of the [4096, 1024] output. By the reading of one step at an
  entry, what step t writes at (p, q) is the distributed arrangement for row 256·t + p of x and row q of w: each
  step writes its own block of ONE function of the two arguments. Row r of the output lies in step r / 256's
  block, so the 16 blocks cover the array, and the array ends holding that function everywhere.
-/
import proofs.«105866_j10290741641835_2_alg».proof.Proof.Gen.KernelIdeal.Value
import proofs.«105866_j10290741641835_2_alg».proof.Proof.KernelEntry
import proofs.«105866_j10290741641835_2_alg».proof.Proof.StagedArrays

noncomputable section

open scoped BigOperators

namespace Cert.Deconf

open Cert.KernelIdeal Cert.KernelIdeal.Gen Cert.KernelIdeal.Value Idealize.ShloMosaic Idealize.ShloMosaic.TcCoe
open Idealize.ShloMosaic.ValueIdx Idealize.SL.Sem
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- Where each window's block sits at step t, decided over the 16 steps: the blocks of x and of the output are
    block-row t; w and the prepared row are taken whole. -/
theorem block_positions : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## The three input blocks at step t, against the arguments -/

/-- Row p of step t's block of x is row 256·t + p of x. -/
theorem x_block_at (c : Dev nD) (t : Fin cfg0.N) (p : Fin 256) (k : Fin 4096) (R : Fin 4096) (hR : R.val = t.val * 256 + p.val) :
    (iblk m c 0 t : FVec Ideal S256x4096 .f32) (ix2 p k)
      = (m ((c : Thread nD τ).loc main_arg0) : S4096x4096.Idx → EReal) (ix2 R k) := by
  obtain ⟨e0, e1, -⟩ := block_positions t
  unfold iblk
  rw [View.read_apply]
  show V m c main_arg0 _ = m (c.tc.loc main_arg0) _
  rw [V_main_arg0]
  congr 1
  funext a
  apply Fin.ext
  match a with
  | ⟨0, _⟩ => show win0_0.index t 0 * 256 + 1 * p.val = R.val; rw [e0, hR]; omega
  | ⟨1, _⟩ => show win0_0.index t 1 * 4096 + 1 * k.val = k.val; rw [e1]; omega

/-- Every step's copy of w is w. -/
theorem w_block_at (c : Dev nD) (t : Fin cfg0.N) (q : Fin 1024) (k : Fin 4096) :
    (iblk m c 1 t : FVec Ideal S1024x4096 .bf16) (ix2 q k)
      = (m ((c : Thread nD τ).loc main_arg1) : S1024x4096.Idx → EReal) (ix2 q k) := by
  obtain ⟨-, -, e0, e1, -⟩ := block_positions t
  unfold iblk
  rw [View.read_apply]
  show (V m c main_v0 : S1024x4096.Idx → EReal) _ = _
  rw [narrowed_w]
  congr 1
  funext a
  apply Fin.ext
  match a with
  | ⟨0, _⟩ => show win0_1.index t 0 * 1024 + 1 * q.val = q.val; rw [e0]; omega
  | ⟨1, _⟩ => show win0_1.index t 1 * 4096 + 1 * k.val = k.val; rw [e1]; omega

/-- Every step's row holds at q the squared norm of row q of w times 2^-12. -/
theorem row_block_at (c : Dev nD) (t : Fin cfg0.N) (q : Fin 1024) :
    (iblk m c 2 t : FVec Ideal S1x1024 .f32) (ix2 (0 : Fin 1) q)
      = rowSq (n := 1024) (m ((c : Thread nD τ).loc main_arg1) : S1024x4096.Idx → EReal) q * Ideal.ofBits .f32 0x39800000#32 := by
  obtain ⟨-, -, -, -, e0, e1, -⟩ := block_positions t
  unfold iblk
  rw [View.read_apply]
  show (V m c main_v5 : S1x1024.Idx → EReal) _ = _
  rw [prepared_row]
  refine (congrArg (scaledNormsRow _) (?_ : _ = ix2 (0 : Fin 1) q)).trans (scaledNormsRow_at _ 0 q)
  funext a
  apply Fin.ext
  match a with
  | ⟨0, _⟩ => show win0_2.index t 0 * 1 + 1 * 0 = 0; rw [e0]
  | ⟨1, _⟩ => show win0_2.index t 1 * 1024 + 1 * q.val = q.val; rw [e1]; omega

/-! ## What step t writes back -/

/-- STEP t WRITES ITS BLOCK OF ONE FUNCTION: block t of the array of the distributed arrangement. -/
theorem flushed_eq (c : Dev nD) (t : Fin cfg0.N) :
    (dats m 0 c).flushed 3 t = ((cfg0.win 3).blk t).view.read (Elt Ideal)
      (kernelArray (m ((c : Thread nD τ).loc main_arg0)) (m ((c : Thread nD τ).loc main_arg1))) := by
  rw [flushed3]
  unfold out0_3
  rw [View.canon_unit_zero zero_offsets]
  simp only [View.ld_unit_zero (S := S256x4096) zero_offsets, View.ld_unit_zero (S := S1024x4096) zero_offsets,
    View.ld_unit_zero (S := S1x1024) zero_offsets]
  obtain ⟨-, -, -, -, -, -, e0, e1⟩ := block_positions t
  funext j
  have hj0 : (j 0).val < 256 := (j 0).isLt
  have hj1 : (j 1).val < 1024 := (j 1).isLt
  have hN : t.val < 16 := lt_of_lt_of_eq t.isLt N_0
  have ej : (cfg0.win 3).xinj (grid0.coords t) j = ix2 (⟨(j 0).val, hj0⟩ : Fin 256) (⟨(j 1).val, hj1⟩ : Fin 1024) :=
    funext fun a => Fin.ext (by match a with | ⟨0, _⟩ => rfl | ⟨1, _⟩ => rfl)
  have ei : ((cfg0.win 3).blk t).view.emb j
      = ix2 (⟨t.val * 256 + (j 0).val, by omega⟩ : Fin 4096) (⟨(j 1).val, hj1⟩ : Fin 1024) :=
    funext fun a => Fin.ext (by
      match a with
      | ⟨0, _⟩ => show win0_3.index t 0 * 256 + 1 * (j 0).val = t.val * 256 + (j 0).val; rw [e0]; omega
      | ⟨1, _⟩ => show win0_3.index t 1 * 1024 + 1 * (j 1).val = (j 1).val; rw [e1]; omega)
  show k0_pay1 (F := Ideal) (iblk m c 0 t) (iblk m c 1 t) (iblk m c 2 t) ((cfg0.win 3).xinj (grid0.coords t) j)
      = kernelArray (m ((c : Thread nD τ).loc main_arg0)) (m ((c : Thread nD τ).loc main_arg1)) (((cfg0.win 3).blk t).view.emb j)
  rw [ej, ei, kernelArray_at]
  exact step_entry (iblk m c 0 t) (iblk m c 1 t) (iblk m c 2 t) (m ((c : Thread nD τ).loc main_arg0))
    (m ((c : Thread nD τ).loc main_arg1)) ⟨t.val * 256 + (j 0).val, by omega⟩ ⟨(j 0).val, hj0⟩ ⟨(j 1).val, hj1⟩
    (fun k => x_block_at m c t ⟨(j 0).val, hj0⟩ k ⟨t.val * 256 + (j 0).val, by omega⟩ rfl)
    (fun k => w_block_at m c t ⟨(j 1).val, hj1⟩ k)
    (row_block_at m c t ⟨(j 1).val, hj1⟩)

/-! ## The blocks cover the array -/

/-- An index of the output is in step t's block iff each coordinate is in the block's range on its axis. -/
theorem mem_block (t : Fin cfg0.N) (i : S4096x1024.Idx) :
    i ∈ ((cfg0.win 3).blk t).view.set ↔ ∀ a : Fin 2, win0_3.index t a * S256x1024.size a ≤ (i a).val
      ∧ (i a).val < win0_3.index t a * S256x1024.size a + S256x1024.size a := by
  show i ∈ ((View.whole main_v6).slice (win0_3.rect t)).set ↔ _
  rw [View.set_slice_whole, Rect.mem_set_unit]
  exact Iff.rfl

/-- Row r of the output lies in step r / 256's block. -/
theorem covered (i : S4096x1024.Idx) :
    ∃ t : Fin cfg0.N, (cfg0.win 3).flush t = true ∧ i ∈ ((cfg0.win 3).blk t).view.set := by
  have hi0 : (i 0).val < 4096 := (i 0).isLt
  have hi1 : (i 1).val < 1024 := (i 1).isLt
  obtain ⟨t, ht⟩ : ∃ t : Fin cfg0.N, t.val = (i 0).val / 256 :=
    ⟨⟨(i 0).val / 256, by rw [show cfg0.N = 16 from N_0]; omega⟩, rfl⟩
  obtain ⟨-, -, -, -, -, -, e0, e1⟩ := block_positions t
  refine ⟨t, flush0_3 t, ?_⟩
  rw [mem_block]
  intro a
  match a with
  | ⟨0, _⟩ =>
    show win0_3.index t 0 * 256 ≤ (i 0).val ∧ (i 0).val < win0_3.index t 0 * 256 + 256
    rw [e0, ht]; omega
  | ⟨1, _⟩ =>
    show win0_3.index t 1 * 1024 ≤ (i 1).val ∧ (i 1).val < win0_3.index t 1 * 1024 + 1024
    rw [e1]; omega

/-! ## The array, and the run -/

/-- THE OUTPUT ARRAY after the 16 steps is the array of the distributed arrangement. -/
theorem final_array (c : Dev nD) :
    (dats m 0 c).arrAt 3 cfg0.N
      = kernelArray (m ((c : Thread nD τ).loc main_arg0)) (m ((c : Thread nD τ).loc main_arg1)) :=
  (dats m 0 c).arrAt_eq_of_cover 3 _ (fun t _ => flushed_eq m c t) covered

/-- THE KERNEL'S RUN, READ: every weakly fair execution terminates with the result at that array and the arguments
    unchanged. -/
theorem run : θ_run defs (onTc (τ := τ) (main (F := Ideal))) ⟨m, fun _ => 0, ρ⟩ fun r => ∀ c : Dev nD,
      r.2.mem ((c : Thread nD τ).loc main_v6)
        = kernelArray (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final_array m c), (h c).2⟩) (Value.run_blocks m ρ)

end Cert.Deconf

end
-- ==== Proof.ReferenceReads.lean ====
/-
  The reference, read at an entry.

  Its twenty host operations compute, at entry (r, c): the squared norm of row r of x (a sum over the feature axis,
  from the initial value 0, kept as a column and broadcast along the columns), twice the inner product of row r of x
  with row c of w (one contraction of the two feature axes), the squared norm of row c of w (kept as a row and
  broadcast along the rows); then  squared norm − 2·inner product + squared norm,  negated and divided by 4096.
  Reading the operations one at a time, outermost first, and identifying the composed index maps with the plain
  coordinates (r, k) and (c, k), this is `refForm`.
-/
import proofs.«105866_j10290741641835_2_alg».proof.Proof.Gen.ReferenceIdeal.Read
import proofs.«105866_j10290741641835_2_alg».proof.Proof.DistanceLaw

noncomputable section

open scoped BigOperators

namespace Cert.Deconf

open Cert.ReferenceIdeal Cert.ReferenceIdeal.Read Idealize.ShloMosaic Idealize.ShloMosaic.ValueIdx

/-- Row r of x along the feature axis, through the column that keeps the squared norms. -/
theorem idx_xsq (r : Fin 4096) (c : Fin 1024) (k : Fin 4096) :
    idx_main_v1 (idx_main_v2 (idx_main_v9 (ix2 r c))) k = ix2 r k :=
  funext fun a => Fin.ext (by match a with | ⟨0, _⟩ => rfl | ⟨1, _⟩ => rfl)

/-- Row c of w along the feature axis, through the row that keeps the squared norms. -/
theorem idx_wsq (r : Fin 4096) (c : Fin 1024) (k : Fin 4096) :
    idx_main_v4 (idx_main_v5 (idx_main_v11 (ix2 r c))) k = ix2 c k :=
  funext fun a => Fin.ext (by match a with | ⟨0, _⟩ => rfl | ⟨1, _⟩ => rfl)

/-- The contraction's left operand index at entry (r, c) and feature k is (r, k). -/
theorem idx_lhs (r : Fin 4096) (c : Fin 1024) (k : Fin 4096) : lidx_main_v6 (ix2 r c) k = ix2 r k :=
  funext fun a => Fin.ext (by match a with | ⟨0, _⟩ => rfl | ⟨1, _⟩ => rfl)

/-- Its right operand index is (c, k). -/
theorem idx_rhs (r : Fin 4096) (c : Fin 1024) (k : Fin 4096) : ridx_main_v6 (ix2 r c) k = ix2 c k :=
  funext fun a => Fin.ext (by match a with | ⟨0, _⟩ => rfl | ⟨1, _⟩ => rfl)

/-- THE REFERENCE AT AN ENTRY: its last stage at (r, c) is the bracket-first arrangement. -/
theorem reference_at (x0 : (⟨S4096x4096, .f32⟩ : BufTy).Contents (Elt Ideal)) (x1 : (⟨S1024x4096, .f32⟩ : BufTy).Contents (Elt Ideal))
    (r : Fin 4096) (c : Fin 1024) :
    val_main_v15 (F := Ideal) x0 x1 (ix2 r c) = refForm (n := 4096) (l := 1024) x0 x1 r c := by
  simp only [val_main_v15_apply, val_main_v14_apply, val_main_cst_2_apply, val_main_v13_apply, val_main_v12_apply,
    val_main_v11_apply, val_main_v10_apply, val_main_v9_apply, val_main_v8_apply, val_main_v7_apply, val_main_cst_1_apply,
    val_main_v6_apply, val_main_v5_apply, val_main_v4_apply, val_main_cst_0_apply, val_main_v3_apply, val_main_v2_apply,
    val_main_v1_apply, val_main_cst_apply, val_main_v0_apply, idx_xsq, idx_wsq, idx_lhs, idx_rhs,
    Ideal.ofBits_def, Ideal.hostDivf_def, Ideal.hostNegf_def, Ideal.negf_def, Ideal.addf_def, Ideal.subf_def, Ideal.mulf_def,
    Ideal.ofBits_zero_f32, zero_add]
  rfl

/-- THE REFERENCE'S ARRAY: where every entry of x and w is a real number, the reference's result is the array of the
    distributed arrangement — the bracket-first entry it computes equals the distributed one by the law. -/
theorem reference_array (x0 : (⟨S4096x4096, .f32⟩ : BufTy).Contents (Elt Ideal)) (x1 : (⟨S1024x4096, .f32⟩ : BufTy).Contents (Elt Ideal))
    (hx : ∀ i, ∃ v : ℝ, x0 i = (v : EReal)) (hw : ∀ i, ∃ v : ℝ, x1 i = (v : EReal)) :
    val_main_v15 (F := Ideal) x0 x1 = kernelArray x0 x1 := by
  funext i
  obtain ⟨r, c, rfl⟩ : ∃ (r : Fin 4096) (c : Fin 1024), i = ix2 r c := ⟨i 0, i 1, eq_ix2 i⟩
  rw [reference_at, kernelArray_at]
  exact (kernelForm_eq_refForm (n := 4096) (l := 1024) x0 x1 hx hw r c).symm

end Cert.Deconf

end
-- ==== Proof.FiniteInputs.lean ====
/-
  What the precondition gives: every entry of x and of w is a real number.

  The precondition is the conjunction of two tests, one per array: every entry's absolute value is strictly below
  the word of +infinity. An extended real whose absolute value max(v, −v) is below +infinity is neither infinity
  (for either one the maximum IS +infinity), so it is a real number.
-/
import proofs.«105866_j10290741641835_2_alg».proof.Pre_finite_inputs
import proofs.«105866_j10290741641835_2_alg».proof.Proof.Gen.Pre_finite_inputs
import Idealize.ShloMosaic.Lib.ReduceAll
import Idealize.ShloMosaic.Lib.ValueIdx
import Idealize.ShloMosaic.PureOps.Ideal.Laws

noncomputable section

namespace Cert.Deconf

open Idealize.ShloMosaic Idealize.ShloMosaic.ValueIdx Cert.Pre_finite_inputs

/-- The scalar shape has one index. -/
instance scalarIdxSubsingleton : Subsingleton Cert.Pre_finite_inputs.S_.Idx := ⟨fun _ _ => funext fun d => d.elim0⟩

/-- The word 0x7F800000 denotes +infinity. -/
theorem word_inf : Ideal.ofBits .f32 0x7F800000#32 = ⊤ := by
  simp [Ideal.ofBits, Ideal.ieee]

/-- An extended real whose absolute value is strictly below +infinity is a real number. -/
theorem real_of_abs_lt (v : EReal) (h : Ideal.cmp .olt (max v (-v)) (Ideal.ofBits .f32 0x7F800000#32) = 1#1) :
    ∃ r : ℝ, v = (r : EReal) := by
  rw [word_inf] at h
  induction v using EReal.rec with
  | bot => simp [Ideal.cmp] at h
  | top => simp [Ideal.cmp] at h
  | coe r => exact ⟨r, rfl⟩

/-- THE PRECONDITION READ BACK: where it holds, every entry of both arrays is a real number. -/
theorem entries_real (x : FVec Ideal S4096x4096 .f32) (w : FVec Ideal S1024x4096 .f32)
    (h : Cert.Pre_finite_inputs.fn (F := Ideal) x w = fun _ => 1#1) :
    (∀ i, ∃ r : ℝ, x i = (r : EReal)) ∧ (∀ i, ∃ r : ℝ, w i = (r : EReal)) := by
  have h0 := congrFun h ix0
  dsimp only [Cert.Pre_finite_inputs.fn] at h0
  obtain ⟨hx, hw⟩ := IntOp.andi_eq_one.1 h0
  exact ⟨fun i => real_of_abs_lt _ (Host.reduce_andi_all _ _ _ _ _ hx i),
    fun i => real_of_abs_lt _ (Host.reduce_andi_all _ _ _ _ _ hw i)⟩

end Cert.Deconf

end
-- ==== Proof.lean ====
/-
  The negated mean squared distance between the 4096 rows of x and the 1024 rows of w, computed two ways.

  Entry (r, c) of the result is  −(|x_r|^2 − 2 <x_r, w_c> + |w_c|^2) / 4096.  The reference forms the bracket from
  the two squared norms and twice the inner product, negates it and divides by 4096. The kernel distributes the
  factor first: the host prepares |w_c|^2 · 2^-12 for every row of w, and each of 16 grid steps, holding 256 rows of
  x, stores  <x_r, w_c> · 2^-11 − |x_r|^2 · 2^-12 − |w_c|^2 · 2^-12.  The literals 2^-12, 2^-11, 2 and 4096 are exact
  powers of two, so on the extended reals they are the reals 1/4096, 2/4096, 2 and 4096; the narrowing of x and w to
  sixteen bits before the contraction is the identity there; and a sum over the feature axis is the same sum whether
  the vector unit, the matrix unit or the host takes it.

  The two ways agree by distributivity, which holds in the reals but not at the infinities; the precondition —
  every entry of x and w has absolute value below +infinity — says every entry is a real, so the three sums are
  reals and the law applies at every entry.

  The kernel's result array as one function of the arguments is `Cert.Deconf.run` (the 16 blocks cover the output and
  each step writes its block of that function); the reference's is its run read one operation at a time
  (`Cert.Deconf.reference_array`); the law joining them is `Cert.Deconf.kernelForm_eq_refForm`.
-/
import proofs.«105866_j10290741641835_2_alg».proof.Defs
import proofs.«105866_j10290741641835_2_alg».proof.Proof.Gen.Kernel
import proofs.«105866_j10290741641835_2_alg».proof.Proof.Gen.Kernel.Skeleton
import proofs.«105866_j10290741641835_2_alg».proof.Proof.Gen.Kernel.Launch
import proofs.«105866_j10290741641835_2_alg».proof.Proof.Gen.Kernel.Points
import proofs.«105866_j10290741641835_2_alg».proof.Proof.Gen.Kernel.Frame
import proofs.«105866_j10290741641835_2_alg».proof.Proof.Gen.KernelIdeal
import proofs.«105866_j10290741641835_2_alg».proof.Proof.Gen.KernelIdeal.Skeleton
import proofs.«105866_j10290741641835_2_alg».proof.Proof.Gen.KernelIdeal.Launch
import proofs.«105866_j10290741641835_2_alg».proof.Proof.Gen.KernelIdeal.Points
import proofs.«105866_j10290741641835_2_alg».proof.Proof.Gen.KernelIdeal.Frame
import proofs.«105866_j10290741641835_2_alg».proof.Proof.Gen.ReferenceIdeal
import proofs.«105866_j10290741641835_2_alg».proof.Proof.Gen.Pre_finite_inputs
import proofs.«105866_j10290741641835_2_alg».proof.Proof.Gen.KernelIdeal.Value
import proofs.«105866_j10290741641835_2_alg».proof.Proof.Gen.ReferenceIdeal.Run
import proofs.«105866_j10290741641835_2_alg».proof.Proof.Gen.ReferenceIdeal.Read
import proofs.«105866_j10290741641835_2_alg».proof.Proof.KernelArray
import proofs.«105866_j10290741641835_2_alg».proof.Proof.ReferenceReads
import proofs.«105866_j10290741641835_2_alg».proof.Proof.FiniteInputs
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference is twenty host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Reading the kernel on the extended reals rewrote no operation, so there is nothing to preserve. -/
theorem preserves : Cert.preserves_Kernel_KernelIdeal := trivial

/-- From memories agreeing on x and w, all of whose entries are reals, both programs end with the array of the
    distributed arrangement: the kernel block by block, the reference by the law at every entry. -/
theorem algebraic : Cert.algebraic_KernelIdeal_ReferenceIdeal := by
  intro m ρ m' ρ' hpre hagree
  refine ⟨fun c => Cert.Deconf.kernelArray (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), Cert.Deconf.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v15_eq]
  obtain ⟨hx, hw⟩ := Cert.Deconf.entries_real _ _ (hpre c)
  exact Cert.Deconf.reference_array _ _ hx hw

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
